-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x25x128 : Shape := ⟨3, ![50000, 25, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x25x128 : S_.BroadcastsInDim S50000x25x128 (![] : Fin 0 → Fin S50000x25x128.rank)
  reducesTo_S50000x25x128_S_d0_1_2 : S50000x25x128.ReducesTo [0, 1, 2] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S50000x25x128 1) : IVec S_ 1 :=
  let main_c_5 : IVec S_ 1 := constantI S_ 1 1#1
  let main_v17 : IVec S_ 1 := (fun x v => Host.reduce IntOp.andi x v reducesTo_S50000x25x128_S_d0_1_2 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S50000x128 .f32) (main_arg1 : FVec F S50000x25x128 .f32) (main_arg2 : FVec F S50000x128 .f32) (main_arg3 : FVec F S50000x25x128 .f32) (main_arg4 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x25x128 .f32 := Host.absf main_arg1
  let main_cst_0 : FVec F S_ .f32 := constant S_ .f32 0x7F800000#32
  let main_v5 : FVec F S50000x25x128 .f32 := broadcastInDim S50000x25x128 ![] bcast_S_S50000x25x128 main_cst_0
  let main_v6 : IVec S50000x25x128 1 := cmpf .olt main_v4 main_v5
  let main_c_1 : IVec S_ 1 := constantI S_ 1 1#1
  let main_v7 : IVec S_ 1 := (fun x v => Host.reduce IntOp.andi x v reducesTo_S50000x25x128_S_d0_1_2 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x25x128 .f32 := Host.absf main_arg3
  let main_cst_4 : FVec F S_ .f32 := constant S_ .f32 0x7F800000#32
  let main_v15 : FVec F S50000x25x128 .f32 := broadcastInDim S50000x25x128 ![] bcast_S_S50000x25x128 main_cst_4
  let main_v16 : IVec S50000x25x128 1 := cmpf .olt main_v14 main_v15
  fn_part1 (F := F) main_arg4 main_v13 main_v16
-- ==== Kernel.lean ====
abbrev S50000x128 : Shape := ⟨2, ![50000, 128]⟩
abbrev S50000x25x128 : Shape := ⟨3, ![50000, 25, 128]⟩
abbrev S256x128 : Shape := ⟨2, ![256, 128]⟩
abbrev S128x128 : Shape := ⟨2, ![128, 128]⟩
abbrev S512x128 : Shape := ⟨2, ![512, 128]⟩
abbrev S512x25x128 : Shape := ⟨3, ![512, 25, 128]⟩

abbrev nBuf : Space → Nat
  | .hbm => 11
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S50000x25x128, .f32⟩
  | .hbm, ⟨2, _⟩ => ⟨S50000x128, .f32⟩
  | .hbm, ⟨3, _⟩ => ⟨S50000x25x128, .f32⟩
  | .hbm, ⟨4, _⟩ => ⟨S256x128, .f32⟩
  | .hbm, ⟨5, _⟩ => ⟨S128x128, .f32⟩
  | .hbm, ⟨6, _⟩ => ⟨S128x128, .bf16⟩
  | .hbm, ⟨7, _⟩ => ⟨S128x128, .f32⟩
  | .hbm, ⟨8, _⟩ => ⟨S128x128, .bf16⟩
  | .hbm, ⟨9, _⟩ => ⟨S50000x128, .f32⟩
  | .hbm, ⟨10, _⟩ => ⟨S50000x128, .f32⟩
  | .local _ .vmem, ⟨0, _⟩ => ⟨S512x128, .f32⟩
  | .local _ .vmem, ⟨1, _⟩ => ⟨S512x128, .f32⟩
  | .local _ .vmem, ⟨2, _⟩ => ⟨S512x25x128, .f32⟩
  | .local _ .vmem, ⟨3, _⟩ => ⟨S512x25x128, .f32⟩
  | .local _ .vmem, ⟨4, _⟩ => ⟨S512x128, .f32⟩
  | .local _ .vmem, ⟨5, _⟩ => ⟨S512x128, .f32⟩
  | .local _ .vmem, ⟨6, _⟩ => ⟨S512x25x128, .f32⟩
  | .local _ .vmem, ⟨7, _⟩ => ⟨S512x25x128, .f32⟩
  | .local _ .vmem, ⟨8, _⟩ => ⟨S128x128, .bf16⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x25x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x25x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x128_S128x128_0_0 : S256x128.Slices ![0, 0] S128x128
  bitsLt_bf16_f32 : FTy.bits .bf16 < FTy.bits .f32
  slices_S256x128_S128x128_128_0 : S256x128.Slices ![128, 0] S128x128
  inb_S512x25x128_S512x25x128_0_0_0 : ∀ a, (![0, 0, 0] : Fin 3 → Nat) a + S512x25x128.size a ≤ S512x25x128.size a
  h_S512x25x128 : 0 < S512x25x128.numel
  reduces_S512x25x128_S512x128 : S512x25x128.Reduces [1] S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x128_S512x128_0_0 : ∀ a, (![0, 0] : Fin 2 → Nat) a + S512x128.size a ≤ S512x128.size a
  h_S512x128 : 0 < S512x128.numel
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x128.size a < S50000x128.size a
  hwx0_0 : ∀ i : grid0.Coords, EltTy.bits .f32 = 32 ∨ (Rect.unit (s := S50000x128) (fun a => cc0_transform_0 i a * S512x128.size a) (fun a => (Pipeline.Clip.of (cc0_transform_0 i a) (S512x128.size a) (S50000x128.size a)).extent (S512x128.size a)) fun a => Pipeline.Clip.inb (Pipeline.Clip.ok_of (hstart0_0 i a))).WholeWords (EltTy.packing .f32)
  hwxs0_0 : ∀ i : grid0.Coords, EltTy.bits .f32 = 32 ∨ (Rect.unit (s := S512x128) (fun _ => 0) (fun a => (Pipeline.Clip.of (cc0_transform_0 i a) (S512x128.size a) (S50000x128.size a)).extent (S512x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x25x128.size a < S50000x25x128.size a
  hwx0_1 : ∀ i : grid0.Coords, EltTy.bits .f32 = 32 ∨ (Rect.unit (s := S50000x25x128) (fun a => cc0_transform_1 i a * S512x25x128.size a) (fun a => (Pipeline.Clip.of (cc0_transform_1 i a) (S512x25x128.size a) (S50000x25x128.size a)).extent (S512x25x128.size a)) fun a => Pipeline.Clip.inb (Pipeline.Clip.ok_of (hstart0_1 i a))).WholeWords (EltTy.packing .f32)
  hwxs0_1 : ∀ i : grid0.Coords, EltTy.bits .f32 = 32 ∨ (Rect.unit (s := S512x25x128) (fun _ => 0) (fun a => (Pipeline.Clip.of (cc0_transform_1 i a) (S512x25x128.size a) (S50000x25x128.size a)).extent (S512x25x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x128.size a < S50000x128.size a
  hwx0_2 : ∀ i : grid0.Coords, EltTy.bits .f32 = 32 ∨ (Rect.unit (s := S50000x128) (fun a => cc0_transform_2 i a * S512x128.size a) (fun a => (Pipeline.Clip.of (cc0_transform_2 i a) (S512x128.size a) (S50000x128.size a)).extent (S512x128.size a)) fun a => Pipeline.Clip.inb (Pipeline.Clip.ok_of (hstart0_2 i a))).WholeWords (EltTy.packing .f32)
  hwxs0_2 : ∀ i : grid0.Coords, EltTy.bits .f32 = 32 ∨ (Rect.unit (s := S512x128) (fun _ => 0) (fun a => (Pipeline.Clip.of (cc0_transform_2 i a) (S512x128.size a) (S50000x128.size a)).extent (S512x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x25x128.size a < S50000x25x128.size a
  hwx0_3 : ∀ i : grid0.Coords, EltTy.bits .f32 = 32 ∨ (Rect.unit (s := S50000x25x128) (fun a => cc0_transform_3 i a * S512x25x128.size a) (fun a => (Pipeline.Clip.of (cc0_transform_3 i a) (S512x25x128.size a) (S50000x25x128.size a)).extent (S512x25x128.size a)) fun a => Pipeline.Clip.inb (Pipeline.Clip.ok_of (hstart0_3 i a))).WholeWords (EltTy.packing .f32)
  hwxs0_3 : ∀ i : grid0.Coords, EltTy.bits .f32 = 32 ∨ (Rect.unit (s := S512x25x128) (fun _ => 0) (fun a => (Pipeline.Clip.of (cc0_transform_3 i a) (S512x25x128.size a) (S50000x25x128.size a)).extent (S512x25x128.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S512x128.size a < S50000x128.size a
  hwx0_6 : ∀ i : grid0.Coords, EltTy.bits .f32 = 32 ∨ (Rect.unit (s := S50000x128) (fun a => cc0_transform_6 i a * S512x128.size a) (fun a => (Pipeline.Clip.of (cc0_transform_6 i a) (S512x128.size a) (S50000x128.size a)).extent (S512x128.size a)) fun a => Pipeline.Clip.inb (Pipeline.Clip.ok_of (hstart0_6 i a))).WholeWords (EltTy.packing .f32)
  hwxs0_6 : ∀ i : grid0.Coords, EltTy.bits .f32 = 32 ∨ (Rect.unit (s := S512x128) (fun _ => 0) (fun a => (Pipeline.Clip.of (cc0_transform_6 i a) (S512x128.size a) (S50000x128.size a)).extent (S512x128.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S512x128.size a < S50000x128.size a
  hwx0_7 : ∀ i : grid0.Coords, EltTy.bits .f32 = 32 ∨ (Rect.unit (s := S50000x128) (fun a => cc0_transform_7 i a * S512x128.size a) (fun a => (Pipeline.Clip.of (cc0_transform_7 i a) (S512x128.size a) (S50000x128.size a)).extent (S512x128.size a)) fun a => Pipeline.Clip.inb (Pipeline.Clip.ok_of (hstart0_7 i a))).WholeWords (EltTy.packing .f32)
  hwxs0_7 : ∀ i : grid0.Coords, EltTy.bits .f32 = 32 ∨ (Rect.unit (s := S512x128) (fun _ => 0) (fun a => (Pipeline.Clip.of (cc0_transform_7 i a) (S512x128.size a) (S50000x128.size a)).extent (S512x128.size a)) fun a => (Nat.zero_add _).trans_le (Pipeline.Clip.extent_le (Pipeline.Clip.ok_of (hstart0_7 i a)))).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpecClip (Memref.whole main_arg0) S512x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x25x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S512x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S512x25x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v4_0) S512x128.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v4_1) S512x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x25x128 : Shape := ⟨3, ![50000, 25, 128]⟩
abbrev S256x128 : Shape := ⟨2, ![256, 128]⟩
abbrev S_ : Shape := ⟨0, ![]⟩
abbrev S50000x256 : Shape := ⟨2, ![50000, 256]⟩

abbrev nBuf : Space → Nat
  | .hbm => 19
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x25x128, .f32⟩
  | .hbm, ⟨2, _⟩ => ⟨S50000x128, .f32⟩
  | .hbm, ⟨3, _⟩ => ⟨S50000x25x128, .f32⟩
  | .hbm, ⟨4, _⟩ => ⟨S256x128, .f32⟩
  | .hbm, ⟨5, _⟩ => ⟨S_, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S50000x128, .f32⟩
  | .hbm, ⟨18, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  reducesTo_S50000x25x128_S50000x128_d1 : S50000x25x128.ReducesTo [1] S50000x128
  h_S_ : 0 < S_.numel
  bcast_S_S50000x128 : S_.BroadcastsInDim S50000x128 (![] : Fin 0 → Fin S50000x128.rank)
  concatenates_S50000x128_S50000x128_S50000x256_d1 : Shape.Concatenates [S50000x128, S50000x128] S50000x256 1
  dot_S50000x256_S256x128_S50000x128_1_0_0_1_n_n_wf : DotDims.WF S50000x256 S256x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.WordBody.lean ====
/-
  The kernel body as one step on its eight staging buffers.

  At a grid point the body reads six buffers whole — a block of 512 rows of the node features (512 x 128), the block of
  their 25 neighbours' features (512 x 25 x 128), the same two for the second node set, and the two halves of the
  weights (128 x 128 each) — and overwrites the two result buffers whole (512 x 128 each). It keeps nothing between
  points. So, on ANY whole buffers holding contents x0 … x5 in the inputs and anything in the outputs, it runs to a
  state where the inputs hold what they held and each output holds the body's arithmetic of the inputs' contents:
  result 0 from (x0, x1) and the weights, result 1 from (x2, x3) and the weights. Every row of the buffers takes part,
  including rows that at the grid's last point lie past the arrays' end; what those rows hold is the concern of the
  modules that use this one.
-/
import proofs.«108062_j79714593014087_2_alg».proof.Proof.Gen.Kernel.Frame
import proofs.«108062_j79714593014087_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole, from offset zero -/

abbrev rRow : Rect S512x128 := Rect.unit (s := S512x128) ![0, 0] S512x128.size inb_S512x128_S512x128_0_0
abbrev rNbr : Rect S512x25x128 := Rect.unit (s := S512x25x128) ![0, 0, 0] S512x25x128.size inb_S512x25x128_S512x25x128_0_0_0
abbrev rWt : Rect S128x128 := Rect.unit (s := S128x128) ![0, 0] S128x128.size inb_S128x128_S128x128_0_0

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What the body leaves in the two result buffers -/

/-- Result 0's buffer after the body: its one store, of the first payload, over the whole buffer. -/
def left0 (x0 : Vec F S512x128 .f32) (x1 : Vec F S512x25x128 .f32) (x4 x5 : Vec F S128x128 .bf16) : Vec F S512x128 .f32 :=
  View.canon [⟨rRow, k0_pay3 (View.ld x1 rNbr) (View.ld x4 rWt) (View.ld x5 rWt) (View.ld x0 rRow)⟩]

/-- Result 1's buffer after the body: its one store, of the second payload. -/
def left1 (x2 : Vec F S512x128 .f32) (x3 : Vec F S512x25x128 .f32) (x4 x5 : Vec F S128x128 .bf16) : Vec F S512x128 .f32 :=
  View.canon [⟨rRow, k0_pay4 (View.ld x3 rNbr) (View.ld x4 rWt) (View.ld x5 rWt) (View.ld x2 rRow)⟩]

/-- A whole-buffer store from offset zero leaves its payload, and a whole-buffer load reads the contents: the two
    result buffers hold the payloads of the inputs' contents themselves. -/
theorem left0_eq (x0 : Vec F S512x128 .f32) (x1 : Vec F S512x25x128 .f32) (x4 x5 : Vec F S128x128 .bf16) :
    left0 x0 x1 x4 x5 = k0_pay3 x1 x4 x5 x0 := by
  unfold left0
  rw [View.canon_unit_zero zeros2, View.ld_unit_zero zeros3, View.ld_unit_zero zeros2, View.ld_unit_zero zeros2,
    View.ld_unit_zero zeros2]

theorem left1_eq (x2 : Vec F S512x128 .f32) (x3 : Vec F S512x25x128 .f32) (x4 x5 : Vec F S128x128 .bf16) :
    left1 x2 x3 x4 x5 = k0_pay4 x3 x4 x5 x2 := by
  unfold left1
  rw [View.canon_unit_zero zeros2, View.ld_unit_zero zeros3, View.ld_unit_zero zeros2, View.ld_unit_zero zeros2,
    View.ld_unit_zero zeros2]

/-- The one store covers the buffer. -/
theorem covers (p : Vec F S512x128 .f32) (y : S512x128.Idx) :
    ∃ pc ∈ ([⟨rRow, p⟩] : List (View.Piece (Elt F) S512x128 .f32)), y ∈ pc.1.set :=
  ⟨_, List.mem_singleton_self _, View.mem_set_unit_zero zeros2 inb_S512x128_S512x128_0_0 y⟩

/-! ## The body's triple -/

set_option maxHeartbeats 4000000 in
/-- The body on whole staging buffers: the six inputs at contents `x0 … x5`, the two outputs at anything; it ends with
    the inputs as they were and the outputs at `left0`, `left1` of the inputs' contents. -/
theorem sound_kernel (c : Dev nD) (E : Set ℕ) (i : grid0.Coords)
    (arg1 : Memref sig .tc .vmem S512x128 .f32) (harg1 : arg1.IsWhole) (arg2 : Memref sig .tc .vmem S512x25x128 .f32) (harg2 : arg2.IsWhole)
    (arg3 : Memref sig .tc .vmem S512x128 .f32) (harg3 : arg3.IsWhole) (arg4 : Memref sig .tc .vmem S512x25x128 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S512x128 .f32) (harg7 : arg7.IsWhole) (arg8 : Memref sig .tc .vmem S512x128 .f32) (harg8 : arg8.IsWhole)
    (x0 : Vec F S512x128 .f32) (x1 : Vec F S512x25x128 .f32) (x2 : Vec F S512x128 .f32) (x3 : Vec F S512x25x128 .f32)
    (x4 x5 : Vec F S128x128 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (left0 x0 x1 x4 x5) ∗ owns (c : Thread nD τ) arg8 fullShare (left1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  · iexists _; isplitr
    swap; · iexact H7
    ipureintro
    exact View.read_writes_eq_canon _ _ _ (covers _)

end Cert.Kernel.Body

end
-- ==== Proof.WordRun.lean ====
/-
  The frame of the kernel as printed, at the word level.

  The frame claim says only that the program runs to its end without a fault and leaves its five argument arrays as they
  were; of the two result arrays it says nothing. So the proof data name what the body leaves in the six input buffers —
  each feature buffer its block of the array on the rows inside the array, each weight buffer its half — and FORGET the
  two result buffers: the body is handed them at any contents and hands them back at any contents. That matters at the
  grid's last point, whose blocks reach 176 rows past the arrays' end: the body computes on rows nothing names, and at
  the word level nothing here says how a product's rows depend on its operand's rows; the frame does not need it.
-/
import proofs.«108062_j79714593014087_2_alg».proof.Proof.WordBody
import Idealize.ShloMosaic.Lib.Pipeline.Value

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two result windows: nothing reads what the kernel leaves in them, so nothing of it is named. -/
def forgets : Fin 8 → Bool := fun w => w.val == 6 || w.val == 7

/-- What stands in a feature buffer on rows past the arrays' end: nothing is stated of them, and nothing reads this. -/
abbrev filler (s : Shape) : s.Idx → Elt F .f32 := fun _ => Scalar.ofBits (F := F) .f32 0#32

/-- The proof data of the one pipeline on core `c`: the arrays as the region finds them; after the body at point `t`
    each feature buffer at its block (filled out past the arrays' end), each weight buffer at its half, the result
    buffers forgotten; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (filler S512x128) (iblk m c 0 t)
    | ⟨1, _⟩ => win0_1.fill (grid0.coords t) (filler S512x25x128) (iblk m c 1 t)
    | ⟨2, _⟩ => win0_2.fill (grid0.coords t) (filler S512x128) (iblk m c 2 t)
    | ⟨3, _⟩ => win0_3.fill (grid0.coords t) (filler S512x25x128) (iblk m c 3 t)
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (filler S512x128) (iblk m c 0 t) := by dsimp only [dats]
theorem after0_1 (c : Dev nD) (t : Fin cfg0.N) : (dats m 0 c).after 1 t = win0_1.fill (grid0.coords t) (filler S512x25x128) (iblk m c 1 t) := by dsimp only [dats]
theorem after0_2 (c : Dev nD) (t : Fin cfg0.N) : (dats m 0 c).after 2 t = win0_2.fill (grid0.coords t) (filler S512x128) (iblk m c 2 t) := by dsimp only [dats]
theorem after0_3 (c : Dev nD) (t : Fin cfg0.N) : (dats m 0 c).after 3 t = win0_3.fill (grid0.coords t) (filler S512x25x128) (iblk m c 3 t) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-! ## What the body finds -/

/-- A feature buffer is fetched at every point: it holds its block on the rows inside the array, and on the others
    whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
/-- A weight buffer, fetched once, holds its half at every point. -/
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

set_option maxHeartbeats 2000000 in
/-- The body at point `t`, as the pipeline calls it: handed the six input buffers as found and the two result buffers at
    anything, it hands the inputs back as they were — a clipped one stated on the rows inside the array — and the results
    at whatever it computed. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ X, owns (c : Thread nD τ) (st0_6 t) fullShare X)
        ∗ (∃ X, owns (c : Thread nD τ) (st0_7 t) fullShare X))
      ⊢ wp frame (wpE (defs₀ (F := F)) Variants.none c none) Set.univ (bodyAt0 t) (fun _ =>
          iprop((dats m 0 c).Φ t.succ ∗ (dats m 0 c).owesAt () t.succ
            ∗ (∃ d, owns (c : Thread nD τ) (st0_0 t) fullShare (win0_0.fill (grid0.coords t) d (win0_0.cut (grid0.coords t) ((dats m 0 c).after 0 t))))
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t))))
            ∗ (∃ d, owns (c : Thread nD τ) (st0_3 t) fullShare (win0_3.fill (grid0.coords t) d (win0_3.cut (grid0.coords t) ((dats m 0 c).after 3 t))))
            ∗ owns (c : Thread nD τ) (st0_4 t) fullShare ((dats m 0 c).after 4 t)
            ∗ owns (c : Thread nD τ) (st0_5 t) fullShare ((dats m 0 c).after 5 t)
            ∗ (∃ X, owns (c : Thread nD τ) (st0_6 t) fullShare X)
            ∗ (∃ X, owns (c : Thread nD τ) (st0_7 t) fullShare X))) := by
  unfold bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  simp only [Pipeline.Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4, before0_5 m c t d5]
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]; · iexists _; iexact H6
  iexists _; iexact H7

/-- The library's body obligation, at every point, the two result windows forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- For any values, from any memory with zero counters: every weakly fair execution of @main terminates, and every final
    state has every INPUT array of the pipeline unchanged, nothing stated of the two forgotten results, and every other
    unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- THE FRAME of the kernel as printed, at any instance: it runs to its end, nothing faults, and the five argument
    arrays end as they were — a staged input is never written, and the weights, which no window stages, are among the
    buffers the region leaves alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      (Eq.mp (congrFun (((dats m 0 c).toRForget forgets).ArrAt_in 2 rfl _) _) ((h c).1 2)).trans ((A_eq m c 2).trans (V_main_arg2 m c)),
      (Eq.mp (congrFun (((dats m 0 c).toRForget forgets).ArrAt_in 3 rfl _) _) ((h c).1 3)).trans ((A_eq m c 3).trans (V_main_arg3 m c)),
      ((h c).2 main_arg4 (Pipeline.mem_restRefs_of main_arg4 (by decide) (by decide))).trans (V_main_arg4 m c)⟩)
    (run_main m ρ)

end Cert.Kernel.Run

end
-- ==== Proof.IdealBody.lean ====
/-
  The kernel body as one step on its eight staging buffers.

  At a grid point the body reads six buffers whole — a block of 512 rows of the node features (512 x 128), the block of
  their 25 neighbours' features (512 x 25 x 128), the same two for the second node set, and the two halves of the
  weights (128 x 128 each) — and overwrites the two result buffers whole (512 x 128 each). It keeps nothing between
  points. So, on ANY whole buffers holding contents x0 … x5 in the inputs and anything in the outputs, it runs to a
  state where the inputs hold what they held and each output holds the body's arithmetic of the inputs' contents:
  result 0 from (x0, x1) and the weights, result 1 from (x2, x3) and the weights. Every row of the buffers takes part,
  including rows that at the grid's last point lie past the arrays' end; what those rows hold is the concern of the
  modules that use this one.
-/
import proofs.«108062_j79714593014087_2_alg».proof.Proof.Gen.KernelIdeal.Frame
import proofs.«108062_j79714593014087_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole, from offset zero -/

abbrev rRow : Rect S512x128 := Rect.unit (s := S512x128) ![0, 0] S512x128.size inb_S512x128_S512x128_0_0
abbrev rNbr : Rect S512x25x128 := Rect.unit (s := S512x25x128) ![0, 0, 0] S512x25x128.size inb_S512x25x128_S512x25x128_0_0_0
abbrev rWt : Rect S128x128 := Rect.unit (s := S128x128) ![0, 0] S128x128.size inb_S128x128_S128x128_0_0

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What the body leaves in the two result buffers -/

/-- Result 0's buffer after the body: its one store, of the first payload, over the whole buffer. -/
def left0 (x0 : Vec F S512x128 .f32) (x1 : Vec F S512x25x128 .f32) (x4 x5 : Vec F S128x128 .bf16) : Vec F S512x128 .f32 :=
  View.canon [⟨rRow, k0_pay3 (View.ld x1 rNbr) (View.ld x4 rWt) (View.ld x5 rWt) (View.ld x0 rRow)⟩]

/-- Result 1's buffer after the body: its one store, of the second payload. -/
def left1 (x2 : Vec F S512x128 .f32) (x3 : Vec F S512x25x128 .f32) (x4 x5 : Vec F S128x128 .bf16) : Vec F S512x128 .f32 :=
  View.canon [⟨rRow, k0_pay4 (View.ld x3 rNbr) (View.ld x4 rWt) (View.ld x5 rWt) (View.ld x2 rRow)⟩]

/-- A whole-buffer store from offset zero leaves its payload, and a whole-buffer load reads the contents: the two
    result buffers hold the payloads of the inputs' contents themselves. -/
theorem left0_eq (x0 : Vec F S512x128 .f32) (x1 : Vec F S512x25x128 .f32) (x4 x5 : Vec F S128x128 .bf16) :
    left0 x0 x1 x4 x5 = k0_pay3 x1 x4 x5 x0 := by
  unfold left0
  rw [View.canon_unit_zero zeros2, View.ld_unit_zero zeros3, View.ld_unit_zero zeros2, View.ld_unit_zero zeros2,
    View.ld_unit_zero zeros2]

theorem left1_eq (x2 : Vec F S512x128 .f32) (x3 : Vec F S512x25x128 .f32) (x4 x5 : Vec F S128x128 .bf16) :
    left1 x2 x3 x4 x5 = k0_pay4 x3 x4 x5 x2 := by
  unfold left1
  rw [View.canon_unit_zero zeros2, View.ld_unit_zero zeros3, View.ld_unit_zero zeros2, View.ld_unit_zero zeros2,
    View.ld_unit_zero zeros2]

/-- The one store covers the buffer. -/
theorem covers (p : Vec F S512x128 .f32) (y : S512x128.Idx) :
    ∃ pc ∈ ([⟨rRow, p⟩] : List (View.Piece (Elt F) S512x128 .f32)), y ∈ pc.1.set :=
  ⟨_, List.mem_singleton_self _, View.mem_set_unit_zero zeros2 inb_S512x128_S512x128_0_0 y⟩

/-! ## The body's triple -/

set_option maxHeartbeats 4000000 in
/-- The body on whole staging buffers: the six inputs at contents `x0 … x5`, the two outputs at anything; it ends with
    the inputs as they were and the outputs at `left0`, `left1` of the inputs' contents. -/
theorem sound_kernel (c : Dev nD) (E : Set ℕ) (i : grid0.Coords)
    (arg1 : Memref sig .tc .vmem S512x128 .f32) (harg1 : arg1.IsWhole) (arg2 : Memref sig .tc .vmem S512x25x128 .f32) (harg2 : arg2.IsWhole)
    (arg3 : Memref sig .tc .vmem S512x128 .f32) (harg3 : arg3.IsWhole) (arg4 : Memref sig .tc .vmem S512x25x128 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S512x128 .f32) (harg7 : arg7.IsWhole) (arg8 : Memref sig .tc .vmem S512x128 .f32) (harg8 : arg8.IsWhole)
    (x0 : Vec F S512x128 .f32) (x1 : Vec F S512x25x128 .f32) (x2 : Vec F S512x128 .f32) (x3 : Vec F S512x25x128 .f32)
    (x4 x5 : Vec F S128x128 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (left0 x0 x1 x4 x5) ∗ owns (c : Thread nD τ) arg8 fullShare (left1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (covers _)
  · iexists _; isplitr
    swap; · iexact H7
    ipureintro
    exact View.read_writes_eq_canon _ _ _ (covers _)

end Cert.KernelIdeal.Body

end
-- ==== Proof.Spec.lean ====
/-
  The function both programs compute, over the extended reals.

  A node's features `self` (50000 x 128) and those of its 25 sampled neighbours `neg` (50000 x 25 x 128) go through one
  linear layer `w` (256 x 128) applied to the row `[self n | mean_s neg n s]` of length 256. Written out at the output
  index (n, j):

      layer self neg w (n, j) = sum_{k < 128} self (n, k) * w (k, j)  +  sum_{k < 128} mean (n, k) * w (128 + k, j),
      mean (n, k)             = (sum_{s < 25} neg (n, s, k)) / 25.

  The divisor is kept as the float pattern of 25.0 that both programs print, so it is never evaluated. Row `n` of the
  result reads row `n` of `self` and of `neg` only — which is why a kernel that computes it a block of rows at a time,
  the last block reaching past the arrays' end, still writes the right rows.
-/
import Idealize.ShloMosaic.PureOps.Ideal
import Idealize.ShloMosaic.Lib.ValueIdx

noncomputable section

namespace Cert.Layer

open Idealize.ShloMosaic Idealize.ShloMosaic.ValueIdx

/-- The mean over the 25 neighbours of feature `k` of node `n`: their sum divided by the printed 25.0. Stated for an
    array of any number `N` of rows, since the kernel meets it on blocks of 512 rows and the reference on all 50000. -/
def nbrMean {N : Nat} (neg : FVec Ideal ⟨3, ![N, 25, 128]⟩ .f32) (n : Fin N) (k : Fin 128) : EReal :=
  Ideal.div (∑ s : Fin 25, neg (ix3 n s k)) (Ideal.ofBits .f32 0x41C80000#32)

/-- One output entry from row `n` of the two feature arrays and column `j` of the weights: the self half against the
    weights' first 128 rows plus the neighbour-mean half against their last 128. -/
def entry {N : Nat} (self : FVec Ideal ⟨2, ![N, 128]⟩ .f32) (neg : FVec Ideal ⟨3, ![N, 25, 128]⟩ .f32)
    (w : FVec Ideal ⟨2, ![256, 128]⟩ .f32) (n : Fin N) (j : Fin 128) : EReal :=
  (∑ k : Fin 128, self (ix2 n k) * w (ix2 (⟨k.val, by omega⟩ : Fin 256) j))
    + ∑ k : Fin 128, nbrMean neg n k * w (ix2 (⟨128 + k.val, by omega⟩ : Fin 256) j)

/-- The same entry with the two halves of the weights given as two 128 x 128 matrices `w1` (against the self
    features) and `w2` (against the neighbour means): the form a kernel meets that holds the halves in separate
    buffers. -/
def entrySplit {N : Nat} (self : FVec Ideal ⟨2, ![N, 128]⟩ .f32) (neg : FVec Ideal ⟨3, ![N, 25, 128]⟩ .f32)
    (w1 w2 : FVec Ideal ⟨2, ![128, 128]⟩ .bf16) (n : Fin N) (j : Fin 128) : EReal :=
  (∑ k : Fin 128, self (ix2 n k) * w1 (ix2 k j)) + ∑ k : Fin 128, nbrMean neg n k * w2 (ix2 k j)

/-- When `w1` is the weights' rows 0‥127 and `w2` their rows 128‥255, entry by entry, the two forms agree. -/
theorem entry_eq_entrySplit {N : Nat} (self : FVec Ideal ⟨2, ![N, 128]⟩ .f32) (neg : FVec Ideal ⟨3, ![N, 25, 128]⟩ .f32)
    (w : FVec Ideal ⟨2, ![256, 128]⟩ .f32) (w1 w2 : FVec Ideal ⟨2, ![128, 128]⟩ .bf16)
    (h1 : ∀ (k : Fin 128) (j : Fin 128), w1 (ix2 k j) = w (ix2 (⟨k.val, by omega⟩ : Fin 256) j))
    (h2 : ∀ (k : Fin 128) (j : Fin 128), w2 (ix2 k j) = w (ix2 (⟨128 + k.val, by omega⟩ : Fin 256) j))
    (n : Fin N) (j : Fin 128) : entrySplit self neg w1 w2 n j = entry self neg w n j := by
  unfold entrySplit entry
  simp only [h1, h2]

/-- The layer on the whole arrays. -/
def layer (self : FVec Ideal ⟨2, ![50000, 128]⟩ .f32) (neg : FVec Ideal ⟨3, ![50000, 25, 128]⟩ .f32)
    (w : FVec Ideal ⟨2, ![256, 128]⟩ .f32) : FVec Ideal ⟨2, ![50000, 128]⟩ .f32 :=
  fun i => entry self neg w (i 0) (i 1)

end Cert.Layer

end
-- ==== Proof.IdealPayload.lean ====
/-
  The body's arithmetic read at one entry, over the extended reals.

  On a block of 512 rows the body forms, for each row r and feature k, the neighbours' mean
  (sum_{s < 25} nbr (r, s, k)) / 25, and then two products with 128 x 128 weight matrices into zero accumulators,
  added: row r of the self features against `w1` plus row r of the means against `w2`. Over the extended reals a change
  of float format is the identity, a lane reduction is the plain sum over the reduced axis, and a matrix product into
  zero is the plain sum over the contracted index; so the payload at (r, j) is `Cert.Layer.entrySplit` of the block's
  contents at row r and column j — a function of ROW r of the two feature blocks alone.
-/
import proofs.«108062_j79714593014087_2_alg».proof.Proof.Gen.KernelIdeal.Skeleton
import proofs.«108062_j79714593014087_2_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The sum over the neighbour axis of a 512 x 25 x 128 block, at (r, k): the 25 entries (r, s, k). -/
theorem nbrSum_apply (v : FVec Ideal S512x25x128 .f32) (h : S512x25x128.Reduces [1] S512x128) (hφ : FKind.Formats .f32)
    (hacc : (0x00000000#32 : BitVec 32) = FKind.add.neutral .f32 hφ) (r : Fin 512) (k : Fin 128) :
    multiReduction (F := Ideal) .add [1] S512x128 v 0x00000000#32 h hφ hacc (ix2 r k) = ∑ s : Fin 25, v (ix3 r s k) := by
  refine (Ideal.multiReduction_add_single v 0x00000000#32 h hφ hacc (ix2 r k)).trans ?_
  exact Finset.sum_congr rfl fun s _ => congrArg v (funext fun a => Fin.ext (by
    match a with
    | ⟨0, _⟩ => rfl
    | ⟨1, _⟩ => rfl
    | ⟨2, _⟩ => rfl))

/-- The operand indices of the 512 x 128 by 128 x 128 product at output (i, j) and contraction index q: the left
    operand is read at (i, q), the right at (q, j). -/
theorem lhs_row (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem lhs_col (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_row (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_col (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The product into a zero accumulator, at (i, j): the sum over k of left (i, k) times right (k, j). -/
theorem product_apply (l : FVec Ideal S512x128 .bf16) (r : FVec Ideal S128x128 .bf16) (i : Fin 512) (j : Fin 128) :
    matmul (F := Ideal) dot_S512x128_S128x128_S512x128_1_0_0_1_n_n none l r (constant (F := Ideal) S512x128 .f32 0x00000000#32) (ix2 i j)
      = ∑ k : Fin 128, l (ix2 i k) * r (ix2 k j) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 i j) ((contrEquiv1 dot_S512x128_S128x128_S512x128_1_0_0_1_n_n 128 rfl rfl).symm k) = ix2 i k := funext fun a => Fin.ext (by
    match a with
    | ⟨0, _⟩ => exact lhs_row _ _
    | ⟨1, _⟩ => exact (lhs_col _ _).trans hk)
  have er : dot_S512x128_S128x128_S512x128_1_0_0_1_n_n.rhsIdx (ix2 i j) ((contrEquiv1 dot_S512x128_S128x128_S512x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The first payload at (r, j): the self block `v12` against `v8`, plus the means of the neighbour block `v0` against
    `v10`. -/
theorem pay3_apply (v0 : FVec Ideal S512x25x128 .f32) (v8 v10 : FVec Ideal S128x128 .bf16) (v12 : FVec Ideal S512x128 .f32)
    (r : Fin 512) (j : Fin 128) :
    k0_pay3 (F := Ideal) v0 v8 v10 v12 (ix2 r j) = Cert.Layer.entrySplit v12 v0 v8 v10 r j := by
  unfold k0_pay3 k0_pay1 k0_pay2 Cert.Layer.entrySplit Cert.Layer.nbrMean
  refine congrArg₂ (· + ·) ((product_apply _ _ r j).trans ?_) ((product_apply _ _ r j).trans ?_)
  · refine Finset.sum_congr rfl fun k _ => ?_
    rw [shapeCast_self]; rfl
  · refine Finset.sum_congr rfl fun k _ => ?_
    rw [shapeCast_self]
    refine congrArg (· * v10 (ix2 k j)) ?_
    exact congrArg (Ideal.div · (Ideal.ofBits .f32 0x41C80000#32)) (nbrSum_apply v0 _ _ _ r k)

/-- The second payload at (r, j): the same with the second node set's blocks `v14`, `v4`. -/
theorem pay4_apply (v4 : FVec Ideal S512x25x128 .f32) (v8 v10 : FVec Ideal S128x128 .bf16) (v14 : FVec Ideal S512x128 .f32)
    (r : Fin 512) (j : Fin 128) :
    k0_pay4 (F := Ideal) v4 v8 v10 v14 (ix2 r j) = Cert.Layer.entrySplit v14 v4 v8 v10 r j := by
  unfold k0_pay4 k0_pay1 k0_pay2 Cert.Layer.entrySplit Cert.Layer.nbrMean
  refine congrArg₂ (· + ·) ((product_apply _ _ r j).trans ?_) ((product_apply _ _ r j).trans ?_)
  · refine Finset.sum_congr rfl fun k _ => ?_
    rw [shapeCast_self]; rfl
  · refine Finset.sum_congr rfl fun k _ => ?_
    rw [shapeCast_self]
    refine congrArg (· * v10 (ix2 k j)) ?_
    exact congrArg (Ideal.div · (Ideal.ofBits .f32 0x41C80000#32)) (nbrSum_apply v4 _ _ _ r k)

end Cert.KernelIdeal.Payload

end
-- ==== Proof.IdealRun.lean ====
/-
  The idealized kernel's run, point by point, and what its two result arrays end holding.

  The grid has 98 points; point t stages rows 512 t ‥ 512 t + 511 of the four feature arrays, and the two weight halves
  whole. 98 * 512 = 50176 exceeds the arrays' 50000 rows: the last point's blocks reach 176 rows past the arrays' end.
  There a fetch fills only the buffer's first 336 rows, the rest holding words nothing names, and a write-back copies
  only the buffer's first 336 rows. The body still computes on all 512 rows. What makes the result right is that row r
  of the body's output reads row r of its inputs alone (`Payload.pay3_apply`): the rows written back never see the rows
  nothing names.

  So the proof data name, after the body at point t: in each feature buffer its block of the array, on the rows inside
  the array; in each weight buffer its half of the weights; in each result buffer block t of `Cert.Layer.layer` of the
  argument arrays, on the rows inside the array. Past the arrays' end they state nothing (a fixed filler stands there).
  The blocks written back then are blocks of ONE whole-array function, and they cover the array: each result array
  ends holding the layer of the arguments.
-/
import proofs.«108062_j79714593014087_2_alg».proof.Proof.IdealBody
import proofs.«108062_j79714593014087_2_alg».proof.Proof.IdealPayload
import Idealize.ShloMosaic.Lib.Pipeline.Value
import Idealize.ShloMosaic.Lib.StableHlo.Run

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The target: the layer of the argument arrays -/

/-- Result 0 as it should end: the layer of the first node set's features, its neighbours' and the weights. -/
def want0 (c : Dev nD) : Buf (Elt Ideal) ((c : Thread nD τ).loc main_v4_0) :=
  Cert.Layer.layer (m ((c : Thread nD τ).loc main_arg0)) (m ((c : Thread nD τ).loc main_arg1)) (m ((c : Thread nD τ).loc main_arg4))

/-- Result 1: the same of the second node set. -/
def want1 (c : Dev nD) : Buf (Elt Ideal) ((c : Thread nD τ).loc main_v4_1) :=
  Cert.Layer.layer (m ((c : Thread nD τ).loc main_arg2)) (m ((c : Thread nD τ).loc main_arg3)) (m ((c : Thread nD τ).loc main_arg4))

/-- Block t of each target, on the rows inside the array. -/
def wantBlk0 (c : Dev nD) (t : Fin cfg0.N) : (win0_6.xblock (grid0.coords t)).Idx → Elt Ideal .f32 :=
  (win0_6.blk t).view.read (Elt Ideal) (want0 m c)
def wantBlk1 (c : Dev nD) (t : Fin cfg0.N) : (win0_7.xblock (grid0.coords t)).Idx → Elt Ideal .f32 :=
  (win0_7.blk t).view.read (Elt Ideal) (want1 m c)

/-! ## The proof data -/

/-- What stands in a feature or result buffer on rows past the arrays' end: nothing is stated of them, and nothing reads
    this. -/
abbrev filler (s : Shape) : s.Idx → Elt Ideal .f32 := fun _ => Scalar.ofBits (F := Ideal) .f32 0#32

/-- The proof data of the one pipeline on core `c`: the arrays as the region finds them; after the body at point `t`
    each feature buffer at its block, each weight buffer at its half, each result buffer at block `t` of its target —
    the clipped ones filled out past the arrays' end —; the invariant the scoped rest and the generator register,
    untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (filler S512x128) (iblk m c 0 t)
    | ⟨1, _⟩ => win0_1.fill (grid0.coords t) (filler S512x25x128) (iblk m c 1 t)
    | ⟨2, _⟩ => win0_2.fill (grid0.coords t) (filler S512x128) (iblk m c 2 t)
    | ⟨3, _⟩ => win0_3.fill (grid0.coords t) (filler S512x25x128) (iblk m c 3 t)
    | ⟨4, _⟩ => iblk m c 4 t
    | ⟨5, _⟩ => iblk m c 5 t
    | ⟨6, _⟩ => win0_6.fill (grid0.coords t) (filler S512x128) (wantBlk0 m c t)
    | ⟨7, _⟩ => win0_7.fill (grid0.coords t) (filler S512x128) (wantBlk1 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (filler S512x128) (iblk m c 0 t) := by dsimp only [dats]
theorem after0_1 (c : Dev nD) (t : Fin cfg0.N) : (dats m 0 c).after 1 t = win0_1.fill (grid0.coords t) (filler S512x25x128) (iblk m c 1 t) := by dsimp only [dats]
theorem after0_2 (c : Dev nD) (t : Fin cfg0.N) : (dats m 0 c).after 2 t = win0_2.fill (grid0.coords t) (filler S512x128) (iblk m c 2 t) := by dsimp only [dats]
theorem after0_3 (c : Dev nD) (t : Fin cfg0.N) : (dats m 0 c).after 3 t = win0_3.fill (grid0.coords t) (filler S512x25x128) (iblk m c 3 t) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = win0_6.fill (grid0.coords t) (filler S512x128) (wantBlk0 m c t) := by dsimp only [dats]
theorem after0_7 (c : Dev nD) (t : Fin cfg0.N) : (dats m 0 c).after 7 t = win0_7.fill (grid0.coords t) (filler S512x128) (wantBlk1 m c t) := by dsimp only [dats]

/-! ## What the body finds -/

/-- A feature buffer is fetched at every point: it holds its block on the rows inside the array, and on the others
    whatever the buffer held (`d`). -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
/-- A weight buffer, fetched once, holds its half at every point. -/
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The schedule, decided over the 98 points -/

/-- Point t's blocks: block index (t, 0[, 0]) of every feature and result array, (0, 0) of the weight halves. -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- How many rows of point t's blocks lie inside the arrays: all 512 before the last point, 336 at it — the same for
    the six clipped windows —, and every block spans its other axes whole. -/
theorem block_rows : ∀ t : Fin cfg0.N,
    win0_6.xsize (grid0.coords t) (0 : Fin 2) = (if t.val < 97 then 512 else 336) ∧ win0_6.xsize (grid0.coords t) (1 : Fin 2) = 128
    ∧ win0_7.xsize (grid0.coords t) (0 : Fin 2) = (if t.val < 97 then 512 else 336) ∧ win0_7.xsize (grid0.coords t) (1 : Fin 2) = 128
    ∧ win0_0.xsize (grid0.coords t) (0 : Fin 2) = (if t.val < 97 then 512 else 336) ∧ win0_0.xsize (grid0.coords t) (1 : Fin 2) = 128
    ∧ win0_2.xsize (grid0.coords t) (0 : Fin 2) = (if t.val < 97 then 512 else 336) ∧ win0_2.xsize (grid0.coords t) (1 : Fin 2) = 128
    ∧ win0_1.xsize (grid0.coords t) (0 : Fin 3) = (if t.val < 97 then 512 else 336) ∧ win0_1.xsize (grid0.coords t) (1 : Fin 3) = 25
      ∧ win0_1.xsize (grid0.coords t) (2 : Fin 3) = 128
    ∧ win0_3.xsize (grid0.coords t) (0 : Fin 3) = (if t.val < 97 then 512 else 336) ∧ win0_3.xsize (grid0.coords t) (1 : Fin 3) = 25
      ∧ win0_3.xsize (grid0.coords t) (2 : Fin 3) = 128 :=
  (by decide +kernel : ∀ t : Fin grid0.N, _)

/-! ## Reading the buffers at a row inside the array -/

/-- A clipped block filled into a buffer, read at an index of the part the transfer moves, is the block's entry. -/
theorem fill_inside {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill; rw [dif_pos ((w.moved_iff i j).mpr h)]

/-- Row r of a feature buffer at point t, r among the rows inside the array, is row 512 t + r of the argument array,
    whatever the rows past the array's end hold. -/
theorem self0_at (c : Dev nD) (t : Fin cfg0.N) (d : S512x128.Idx → Elt Ideal .f32) (r : Fin 512)
    (hr : r.val < (if t.val < 97 then 512 else 336)) (k : Fin 128) (R : Fin 50000) (hR : R.val = t.val * 512 + r.val) :
    win0_0.fill (grid0.coords t) d (iblk m c 0 t) (ix2 r k) = m ((c : Thread nD τ).loc main_arg0) (ix2 R k) := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  have h : ∀ a : Fin 2, ((ix2 r k : S512x128.Idx) a).val < win0_0.xsize (grid0.coords t) a := fun a => by
    match a with
    | ⟨0, _⟩ => show r.val < win0_0.xsize (grid0.coords t) (0 : Fin 2); rw [x00]; exact hr
    | ⟨1, _⟩ => show k.val < win0_0.xsize (grid0.coords t) (1 : Fin 2); rw [x01]; exact k.isLt
  refine (fill_inside win0_0 (grid0.coords t) d (iblk m c 0 t) (ix2 r k) h).trans ?_
  unfold iblk
  rw [View.read_apply]
  refine (congrFun (V_main_arg0 m c) _).trans (congrArg _ (funext fun a => Fin.ext ?_))
  match a with
  | ⟨0, _⟩ => show win0_0.index t (0 : Fin 2) * 512 + 1 * r.val = R.val; rw [i00]; omega
  | ⟨1, _⟩ => show win0_0.index t (1 : Fin 2) * 128 + 1 * k.val = k.val; rw [i01]; omega
theorem self1_at (c : Dev nD) (t : Fin cfg0.N) (d : S512x128.Idx → Elt Ideal .f32) (r : Fin 512)
    (hr : r.val < (if t.val < 97 then 512 else 336)) (k : Fin 128) (R : Fin 50000) (hR : R.val = t.val * 512 + r.val) :
    win0_2.fill (grid0.coords t) d (iblk m c 2 t) (ix2 r k) = m ((c : Thread nD τ).loc main_arg2) (ix2 R k) := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  have h : ∀ a : Fin 2, ((ix2 r k : S512x128.Idx) a).val < win0_2.xsize (grid0.coords t) a := fun a => by
    match a with
    | ⟨0, _⟩ => show r.val < win0_2.xsize (grid0.coords t) (0 : Fin 2); rw [x20]; exact hr
    | ⟨1, _⟩ => show k.val < win0_2.xsize (grid0.coords t) (1 : Fin 2); rw [x21]; exact k.isLt
  refine (fill_inside win0_2 (grid0.coords t) d (iblk m c 2 t) (ix2 r k) h).trans ?_
  unfold iblk
  rw [View.read_apply]
  refine (congrFun (V_main_arg2 m c) _).trans (congrArg _ (funext fun a => Fin.ext ?_))
  match a with
  | ⟨0, _⟩ => show win0_2.index t (0 : Fin 2) * 512 + 1 * r.val = R.val; rw [i20]; omega
  | ⟨1, _⟩ => show win0_2.index t (1 : Fin 2) * 128 + 1 * k.val = k.val; rw [i21]; omega
theorem nbr0_at (c : Dev nD) (t : Fin cfg0.N) (d : S512x25x128.Idx → Elt Ideal .f32) (r : Fin 512)
    (hr : r.val < (if t.val < 97 then 512 else 336)) (s : Fin 25) (k : Fin 128) (R : Fin 50000) (hR : R.val = t.val * 512 + r.val) :
    win0_1.fill (grid0.coords t) d (iblk m c 1 t) (ix3 r s k) = m ((c : Thread nD τ).loc main_arg1) (ix3 R s k) := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  have h : ∀ a : Fin 3, ((ix3 r s k : S512x25x128.Idx) a).val < win0_1.xsize (grid0.coords t) a := fun a => by
    match a with
    | ⟨0, _⟩ => show r.val < win0_1.xsize (grid0.coords t) (0 : Fin 3); rw [x10]; exact hr
    | ⟨1, _⟩ => show s.val < win0_1.xsize (grid0.coords t) (1 : Fin 3); rw [x11]; exact s.isLt
    | ⟨2, _⟩ => show k.val < win0_1.xsize (grid0.coords t) (2 : Fin 3); rw [x12]; exact k.isLt
  refine (fill_inside win0_1 (grid0.coords t) d (iblk m c 1 t) (ix3 r s k) h).trans ?_
  unfold iblk
  rw [View.read_apply]
  refine (congrFun (V_main_arg1 m c) _).trans (congrArg _ (funext fun a => Fin.ext ?_))
  match a with
  | ⟨0, _⟩ => show win0_1.index t (0 : Fin 3) * 512 + 1 * r.val = R.val; rw [i10]; omega
  | ⟨1, _⟩ => show win0_1.index t (1 : Fin 3) * 25 + 1 * s.val = s.val; rw [i11]; omega
  | ⟨2, _⟩ => show win0_1.index t (2 : Fin 3) * 128 + 1 * k.val = k.val; rw [i12]; omega
theorem nbr1_at (c : Dev nD) (t : Fin cfg0.N) (d : S512x25x128.Idx → Elt Ideal .f32) (r : Fin 512)
    (hr : r.val < (if t.val < 97 then 512 else 336)) (s : Fin 25) (k : Fin 128) (R : Fin 50000) (hR : R.val = t.val * 512 + r.val) :
    win0_3.fill (grid0.coords t) d (iblk m c 3 t) (ix3 r s k) = m ((c : Thread nD τ).loc main_arg3) (ix3 R s k) := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  have h : ∀ a : Fin 3, ((ix3 r s k : S512x25x128.Idx) a).val < win0_3.xsize (grid0.coords t) a := fun a => by
    match a with
    | ⟨0, _⟩ => show r.val < win0_3.xsize (grid0.coords t) (0 : Fin 3); rw [x30]; exact hr
    | ⟨1, _⟩ => show s.val < win0_3.xsize (grid0.coords t) (1 : Fin 3); rw [x31]; exact s.isLt
    | ⟨2, _⟩ => show k.val < win0_3.xsize (grid0.coords t) (2 : Fin 3); rw [x32]; exact k.isLt
  refine (fill_inside win0_3 (grid0.coords t) d (iblk m c 3 t) (ix3 r s k) h).trans ?_
  unfold iblk
  rw [View.read_apply]
  refine (congrFun (V_main_arg3 m c) _).trans (congrArg _ (funext fun a => Fin.ext ?_))
  match a with
  | ⟨0, _⟩ => show win0_3.index t (0 : Fin 3) * 512 + 1 * r.val = R.val; rw [i30]; omega
  | ⟨1, _⟩ => show win0_3.index t (1 : Fin 3) * 25 + 1 * s.val = s.val; rw [i31]; omega
  | ⟨2, _⟩ => show win0_3.index t (2 : Fin 3) * 128 + 1 * k.val = k.val; rw [i32]; omega

/-- The weight halves as the region finds them: rows 0‥127 and rows 128‥255 of the weights, a change of float format
    the identity over the extended reals. -/
theorem V_w1 (c : Dev nD) : (V m c main_v1 : S128x128.Idx → Elt Ideal .bf16)
    = truncf (F := Ideal) .bf16 (extractStridedSlice S128x128 ![0, 0] (m ((c : Thread nD τ).loc main_arg4)) slices_S256x128_S128x128_0_0) bitsLt_bf16_f32 := by
  dsimp only [V, hostOps0]; after_results

theorem w1_at (c : Dev nD) (t : Fin cfg0.N) (k j : Fin 128) :
    iblk m c 4 t (ix2 k j) = m ((c : Thread nD τ).loc main_arg4) (ix2 (⟨k.val, by omega⟩ : Fin 256) j) := by
  obtain ⟨i00, i01, i10, i11, i12, i20, i21, i30, i31, i32, i40, i41, i50, i51, i60, i61, i70, i71⟩ := block_index t
  unfold iblk
  show V m c main_v1 (((cfg0.win 4).blk t).view.emb (ix2 k j)) = _
  refine (congrFun (V_w1 m c) _).trans ?_
  show extractStridedSlice S128x128 ![0, 0] (m ((c : Thread nD τ).loc main_arg4)) slices_S256x128_S128x128_0_0 (((cfg0.win 4).blk t).view.emb (ix2 k j)) = _
  refine extractStridedSlice_apply (s := S256x128) (t := S128x128) ![0, 0] _ slices_S256x128_S128x128_0_0 _ _ (fun a => ?_)
  match a with
  | ⟨0, _⟩ => show k.val = 0 + (win0_4.index t (0 : Fin 2) * 128 + 1 * k.val); rw [i40]; omega
  | ⟨1, _⟩ => show j.val = 0 + (win0_4.index t (1 : Fin 2) * 128 + 1 * j.val); rw [i41]; omega
theorem V_w2 (c : Dev nD) : (V m c main_v3 : S128x128.Idx → Elt Ideal .bf16)
    = truncf (F := Ideal) .bf16 (extractStridedSlice S128x128 ![128, 0] (m ((c : Thread nD τ).loc main_arg4)) slices_S256x128_S128x128_128_0) bitsLt_bf16_f32 := by
  dsimp only [V, hostOps0]; after_results

theorem w2_at (c : Dev nD) (t : Fin cfg0.N) (k j : Fin 128) :
    iblk m c 5 t (ix2 k j) = m ((c : Thread nD τ).loc main_arg4) (ix2 (⟨128 + k.val, by omega⟩ : Fin 256) j) := by
  obtain ⟨i00, i01, i10, i11, i12, i20, i21, i30, i31, i32, i40, i41, i50, i51, i60, i61, i70, i71⟩ := block_index t
  unfold iblk
  show V m c main_v3 (((cfg0.win 5).blk t).view.emb (ix2 k j)) = _
  refine (congrFun (V_w2 m c) _).trans ?_
  show extractStridedSlice S128x128 ![128, 0] (m ((c : Thread nD τ).loc main_arg4)) slices_S256x128_S128x128_128_0 (((cfg0.win 5).blk t).view.emb (ix2 k j)) = _
  refine extractStridedSlice_apply (s := S256x128) (t := S128x128) ![128, 0] _ slices_S256x128_S128x128_128_0 _ _ (fun a => ?_)
  match a with
  | ⟨0, _⟩ => show 128 + k.val = 128 + (win0_5.index t (0 : Fin 2) * 128 + 1 * k.val); rw [i50]; omega
  | ⟨1, _⟩ => show j.val = 0 + (win0_5.index t (1 : Fin 2) * 128 + 1 * j.val); rw [i51]; omega

/-! ## The rows written back -/

/-- The rows of the body's first result that point t writes back — the buffer's rows inside the array — are block t
    of the layer of the argument arrays, WHATEVER the feature buffers held past the arrays' end (`d0`, `d1`): row r of
    the payload reads row r of the feature buffers, which for r inside the array is row 512 t + r of the arrays. -/
theorem rows0 (c : Dev nD) (t : Fin cfg0.N) (d0 : S512x128.Idx → Elt Ideal .f32) (d1 : S512x25x128.Idx → Elt Ideal .f32) :
    win0_6.cut (grid0.coords t) (left0 (win0_0.fill (grid0.coords t) d0 (iblk m c 0 t))
        (win0_1.fill (grid0.coords t) d1 (iblk m c 1 t)) (iblk m c 4 t) (iblk m c 5 t)) = wantBlk0 m c t := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  funext y
  have hy0 : (y 0).val < (if t.val < 97 then 512 else 336) := x60 ▸ (y 0).isLt
  have hy1 : (y 1).val < 128 := x61 ▸ (y 1).isLt
  have ht : t.val < 98 := N_0 ▸ t.isLt
  have h512 : (y 0).val < 512 := by split at hy0 <;> omega
  have hRow : t.val * 512 + (y 0).val < 50000 := by split at hy0 <;> omega
  obtain ⟨r, hr⟩ : ∃ r : Fin 512, r.val = (y 0).val := ⟨⟨_, h512⟩, rfl⟩
  obtain ⟨j, hj⟩ : ∃ j : Fin 128, j.val = (y 1).val := ⟨⟨_, hy1⟩, rfl⟩
  obtain ⟨R, hR⟩ : ∃ R : Fin 50000, R.val = t.val * 512 + r.val := ⟨⟨t.val * 512 + (y 0).val, hRow⟩, by rw [hr]⟩
  have hrIn : r.val < (if t.val < 97 then 512 else 336) := hr ▸ hy0
  have ex : win0_6.xinj (grid0.coords t) y = ix2 r j := funext fun a => Fin.ext (by
    match a with
    | ⟨0, _⟩ => exact hr.symm
    | ⟨1, _⟩ => exact hj.symm)
  have ee : (win0_6.blk t).view.emb y = ix2 R j := funext fun a => Fin.ext (by
    match a with
    | ⟨0, _⟩ => show win0_6.index t (0 : Fin 2) * 512 + 1 * (y 0).val = R.val; rw [i60]; omega
    | ⟨1, _⟩ => show win0_6.index t (1 : Fin 2) * 128 + 1 * (y 1).val = j.val; rw [i61]; omega)
  show left0 _ _ _ _ (win0_6.xinj (grid0.coords t) y) = (win0_6.blk t).view.read (Elt Ideal) (want0 m c) y
  rw [left0_eq, View.read_apply, ex, ee, Payload.pay3_apply]
  unfold want0 Cert.Layer.layer
  show Cert.Layer.entrySplit _ _ _ _ r j = Cert.Layer.entry _ _ _ R j
  rw [← Cert.Layer.entry_eq_entrySplit _ _ _ (iblk m c 4 t) (iblk m c 5 t) (w1_at m c t) (w2_at m c t) R j]
  unfold Cert.Layer.entrySplit Cert.Layer.nbrMean
  refine congrArg₂ (· + ·) (Finset.sum_congr rfl fun k _ => ?_) (Finset.sum_congr rfl fun k _ => ?_)
  · rw [self0_at m c t d0 r hrIn k R hR]
  · refine congrArg (· * _) (congrArg (Ideal.div · _) (Finset.sum_congr rfl fun s _ => ?_))
    rw [nbr0_at m c t d1 r hrIn s k R hR]
theorem rows1 (c : Dev nD) (t : Fin cfg0.N) (d0 : S512x128.Idx → Elt Ideal .f32) (d1 : S512x25x128.Idx → Elt Ideal .f32) :
    win0_7.cut (grid0.coords t) (left1 (win0_2.fill (grid0.coords t) d0 (iblk m c 2 t))
        (win0_3.fill (grid0.coords t) d1 (iblk m c 3 t)) (iblk m c 4 t) (iblk m c 5 t)) = wantBlk1 m c t := by
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  funext y
  have hy0 : (y 0).val < (if t.val < 97 then 512 else 336) := x70 ▸ (y 0).isLt
  have hy1 : (y 1).val < 128 := x71 ▸ (y 1).isLt
  have ht : t.val < 98 := N_0 ▸ t.isLt
  have h512 : (y 0).val < 512 := by split at hy0 <;> omega
  have hRow : t.val * 512 + (y 0).val < 50000 := by split at hy0 <;> omega
  obtain ⟨r, hr⟩ : ∃ r : Fin 512, r.val = (y 0).val := ⟨⟨_, h512⟩, rfl⟩
  obtain ⟨j, hj⟩ : ∃ j : Fin 128, j.val = (y 1).val := ⟨⟨_, hy1⟩, rfl⟩
  obtain ⟨R, hR⟩ : ∃ R : Fin 50000, R.val = t.val * 512 + r.val := ⟨⟨t.val * 512 + (y 0).val, hRow⟩, by rw [hr]⟩
  have hrIn : r.val < (if t.val < 97 then 512 else 336) := hr ▸ hy0
  have ex : win0_7.xinj (grid0.coords t) y = ix2 r j := funext fun a => Fin.ext (by
    match a with
    | ⟨0, _⟩ => exact hr.symm
    | ⟨1, _⟩ => exact hj.symm)
  have ee : (win0_7.blk t).view.emb y = ix2 R j := funext fun a => Fin.ext (by
    match a with
    | ⟨0, _⟩ => show win0_7.index t (0 : Fin 2) * 512 + 1 * (y 0).val = R.val; rw [i70]; omega
    | ⟨1, _⟩ => show win0_7.index t (1 : Fin 2) * 128 + 1 * (y 1).val = j.val; rw [i71]; omega)
  show left1 _ _ _ _ (win0_7.xinj (grid0.coords t) y) = (win0_7.blk t).view.read (Elt Ideal) (want1 m c) y
  rw [left1_eq, View.read_apply, ex, ee, Payload.pay4_apply]
  unfold want1 Cert.Layer.layer
  show Cert.Layer.entrySplit _ _ _ _ r j = Cert.Layer.entry _ _ _ R j
  rw [← Cert.Layer.entry_eq_entrySplit _ _ _ (iblk m c 4 t) (iblk m c 5 t) (w1_at m c t) (w2_at m c t) R j]
  unfold Cert.Layer.entrySplit Cert.Layer.nbrMean
  refine congrArg₂ (· + ·) (Finset.sum_congr rfl fun k _ => ?_) (Finset.sum_congr rfl fun k _ => ?_)
  · rw [self1_at m c t d0 r hrIn k R hR]
  · refine congrArg (· * _) (congrArg (Ideal.div · _) (Finset.sum_congr rfl fun s _ => ?_))
    rw [nbr1_at m c t d1 r hrIn s k R hR]

/-! ## The body obligation -/

set_option maxHeartbeats 2000000 in
/-- The body at point `t`, as the pipeline calls it: handed the eight current buffers — the features' just fetched, the
    weights' at their halves, the results' at anything —, it hands back the features' and weights' as they were and each
    result's holding, on the rows inside the array, block `t` of its target (`rows0`, `rows1`); past the arrays' end the
    obligation of a clipped window states nothing. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := Ideal)) Variants.none c none) Set.univ (bodyAt0 t) (fun _ =>
          iprop((dats m 0 c).Φ t.succ ∗ (dats m 0 c).owesAt () t.succ
            ∗ (∃ d, owns (c : Thread nD τ) (st0_0 t) fullShare (win0_0.fill (grid0.coords t) d (win0_0.cut (grid0.coords t) ((dats m 0 c).after 0 t))))
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t))))
            ∗ (∃ d, owns (c : Thread nD τ) (st0_3 t) fullShare (win0_3.fill (grid0.coords t) d (win0_3.cut (grid0.coords t) ((dats m 0 c).after 3 t))))
            ∗ owns (c : Thread nD τ) (st0_4 t) fullShare ((dats m 0 c).after 4 t)
            ∗ owns (c : Thread nD τ) (st0_5 t) fullShare ((dats m 0 c).after 5 t)
            ∗ (∃ d, owns (c : Thread nD τ) (st0_6 t) fullShare (win0_6.fill (grid0.coords t) d (win0_6.cut (grid0.coords t) ((dats m 0 c).after 6 t))))
            ∗ (∃ d, owns (c : Thread nD τ) (st0_7 t) fullShare (win0_7.fill (grid0.coords t) d (win0_7.cut (grid0.coords t) ((dats m 0 c).after 7 t)))))) := by
  unfold bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  simp only [Pipeline.Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4, before0_5 m c t d5]
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t))
    (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexact H4
  isplitl [H5]; · iexact H5
  isplitl [H6]
  · iexists (left0 (win0_0.fill (grid0.coords t) d0 (iblk m c 0 t)) (win0_1.fill (grid0.coords t) d1 (iblk m c 1 t)) (iblk m c 4 t) (iblk m c 5 t))
    rw [← rows0 m c t d0 d1, Pipeline.Window.fill_cut]
    iexact H6
  · iexists (left1 (win0_2.fill (grid0.coords t) d2 (iblk m c 2 t)) (win0_3.fill (grid0.coords t) d3 (iblk m c 3 t)) (iblk m c 4 t) (iblk m c 5 t))
    rw [← rows1 m c t d2 d3, Pipeline.Window.fill_cut]
    iexact H7

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- For any extended-real values, from any memory with zero counters: every weakly fair execution of @main terminates,
    and every final state has every array of the pipeline at what the proof data give and every other unscoped buffer
    as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result arrays after the run -/

/-- What point `t` writes back of result 0 is block `t` of its target. -/
theorem flushed0 (c : Dev nD) (t : Fin cfg0.N) :
    (dats m 0 c).flushed 6 t = ((cfg0.win 6).blk t).view.read (Elt Ideal) (want0 m c) := by
  show (cfg0.win 6).cut (grid0.coords t) ((dats m 0 c).after 6 t) = _
  rw [after0_6]
  exact win0_6.cut_fill _ _ _
theorem flushed1 (c : Dev nD) (t : Fin cfg0.N) :
    (dats m 0 c).flushed 7 t = ((cfg0.win 7).blk t).view.read (Elt Ideal) (want1 m c) := by
  show (cfg0.win 7).cut (grid0.coords t) ((dats m 0 c).after 7 t) = _
  rw [after0_7]
  exact win0_7.cut_fill _ _ _

/-- An index of a result array is in point `t`'s block iff on each axis it lies in the block's range, cut at the
    array's end. -/
theorem mem_blk0 (t : Fin cfg0.N) (i : S50000x128.Idx) :
    i ∈ ((cfg0.win 6).blk t).view.set ↔ ∀ a : Fin 2, win0_6.index t a * S512x128.size a ≤ (i a).val
      ∧ (i a).val < win0_6.index t a * S512x128.size a + win0_6.xsize (grid0.coords t) a := by
  show i ∈ ((View.whole main_v4_0).slice (win0_6.rect t)).set ↔ _
  rw [View.set_slice_whole, Rect.mem_set_unit]
  exact Iff.rfl
theorem mem_blk1 (t : Fin cfg0.N) (i : S50000x128.Idx) :
    i ∈ ((cfg0.win 7).blk t).view.set ↔ ∀ a : Fin 2, win0_7.index t a * S512x128.size a ≤ (i a).val
      ∧ (i a).val < win0_7.index t a * S512x128.size a + win0_7.xsize (grid0.coords t) a := by
  show i ∈ ((View.whole main_v4_1).slice (win0_7.rect t)).set ↔ _
  rw [View.set_slice_whole, Rect.mem_set_unit]
  exact Iff.rfl

/-- Row R of a result array lies in the block of point R / 512: the 98 blocks, the last cut to 336 rows, cover the
    50000 rows. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hq : (i 0).val / 512 < grid0.N := by rw [N_0]; omega
  obtain ⟨t, ht⟩ : ∃ t : Fin cfg0.N, t.val = (i 0).val / 512 := ⟨⟨(i 0).val / 512, hq⟩, rfl⟩
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  refine ⟨t, flush0_6 t, (mem_blk0 t i).mpr fun a => ?_⟩
  match a with
  | ⟨0, _⟩ =>
    show win0_6.index t (0 : Fin 2) * 512 ≤ (i 0).val ∧ (i 0).val < win0_6.index t (0 : Fin 2) * 512 + win0_6.xsize (grid0.coords t) (0 : Fin 2)
    rw [i60, x60]; split <;> omega
  | ⟨1, _⟩ =>
    show win0_6.index t (1 : Fin 2) * 128 ≤ (i 1).val ∧ (i 1).val < win0_6.index t (1 : Fin 2) * 128 + win0_6.xsize (grid0.coords t) (1 : Fin 2)
    rw [i61, x61]; omega
theorem cover1 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hq : (i 0).val / 512 < grid0.N := by rw [N_0]; omega
  obtain ⟨t, ht⟩ : ∃ t : Fin cfg0.N, t.val = (i 0).val / 512 := ⟨⟨(i 0).val / 512, hq⟩, rfl⟩
  obtain ⟨x60, x61, x70, x71, x00, x01, x20, x21, x10, x11, x12, x30, x31, x32⟩ := block_rows t
  obtain ⟨i00, i01, i10, i11, i12, i20, i21, i30, i31, i32, i40, i41, i50, i51, i60, i61, i70, i71⟩ := block_index t
  refine ⟨t, flush0_7 t, (mem_blk1 t i).mpr fun a => ?_⟩
  match a with
  | ⟨0, _⟩ =>
    show win0_7.index t (0 : Fin 2) * 512 ≤ (i 0).val ∧ (i 0).val < win0_7.index t (0 : Fin 2) * 512 + win0_7.xsize (grid0.coords t) (0 : Fin 2)
    rw [i70, x70]; split <;> omega
  | ⟨1, _⟩ =>
    show win0_7.index t (1 : Fin 2) * 128 ≤ (i 1).val ∧ (i 1).val < win0_7.index t (1 : Fin 2) * 128 + win0_7.xsize (grid0.coords t) (1 : Fin 2)
    rw [i71, x71]; omega

/-- Each result array ends holding the layer of the argument arrays. -/
theorem final0 (c : Dev nD) : (dats m 0 c).arrAt 6 cfg0.N = want0 m c :=
  (dats m 0 c).arrAt_eq_of_cover 6 (want0 m c) (fun t _ => flushed0 m c t) cover0
theorem final1 (c : Dev nD) : (dats m 0 c).arrAt 7 cfg0.N = want1 m c :=
  (dats m 0 c).arrAt_eq_of_cover 7 (want1 m c) (fun t _ => flushed1 m c t) cover1

/-- THE RUN, READ: every weakly fair execution of the idealized kernel terminates with result 0 at the layer of the
    first node set, result 1 at the layer of the second, and the five argument arrays unchanged. -/
theorem run : θ_run defs (onTc (τ := τ) (main (F := Ideal))) ⟨m, fun _ => 0, ρ⟩ fun r => ∀ c : Dev nD,
      r.2.mem ((c.tc : Thread nD τ).loc main_v4_0) = want0 m c
      ∧ r.2.mem ((c.tc : Thread nD τ).loc main_v4_1) = want1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 6).trans (final0 m c), ((h c).1 7).trans (final1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

/-- THE FRAME of the idealized kernel: the run with the results dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Run

end
-- ==== Proof.RefLayer.lean ====
/-
  The reference program's two results are the layer of `Proof/Spec.lean`.

  Each result is a `dot_general` of the concatenation `[self | mean]` (50000 x 256) with the weights (256 x 128): at the
  output index (n, j) the sum over k < 256 of the concatenation at (n, k) times the weights at (k, j). For k < 128 the
  concatenation's entry is `self (n, k)`, for k >= 128 it is the neighbour mean at (n, k - 128): the sum over the 25
  neighbours (started from the zero initial value, which adds nothing) divided by the printed 25.0. Splitting the sum
  over 256 indices into its first and last 128 gives the two sums of `Cert.Layer.entry`.
-/
import proofs.«108062_j79714593014087_2_alg».proof.Proof.Gen.ReferenceIdeal.Read
import proofs.«108062_j79714593014087_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A sum over 256 indices is the sum over the first 128 plus the sum over the last 128. -/
theorem sum_split_256 (f : Fin 256 → EReal) :
    ∑ k : Fin 256, f k
      = (∑ k : Fin 128, f (⟨k.val, by omega⟩ : Fin 256)) + ∑ k : Fin 128, f (⟨128 + k.val, by omega⟩ : Fin 256) :=
  Fin.sum_univ_add (a := 128) (b := 128) f

/-- A concatenation of two 50000 x 128 arrays along axis 1, read in its first 128 columns, is the first array. -/
theorem cat_left (x y : FVec Ideal S50000x128 .f32) (n : Fin 50000) (k : Fin 128) :
    concatenate S50000x256 1 [⟨S50000x128, x⟩, ⟨S50000x128, y⟩] concatenates_S50000x128_S50000x128_S50000x256_d1
        (ix2 n (⟨k.val, by omega⟩ : Fin 256)) = x (ix2 n k) := by
  refine concatenate_pair_apply_left (1 : Fin S50000x256.rank) x y _ _ rfl (ix2 n k) ?_
  intro b
  match b with
  | ⟨0, _⟩ => rfl
  | ⟨1, _⟩ => rfl

/-- Read in its last 128 columns, it is the second array, 128 columns to the left. -/
theorem cat_right (x y : FVec Ideal S50000x128 .f32) (n : Fin 50000) (k : Fin 128) :
    concatenate S50000x256 1 [⟨S50000x128, x⟩, ⟨S50000x128, y⟩] concatenates_S50000x128_S50000x128_S50000x256_d1
        (ix2 n (⟨128 + k.val, by omega⟩ : Fin 256)) = y (ix2 n k) := by
  refine concatenate_pair_apply_right (1 : Fin S50000x256.rank) x y _ _ rfl rfl (ix2 n k) ?_ ?_
  · intro b hb
    match b, hb with
    | ⟨0, _⟩, _ => rfl
    | ⟨1, _⟩, hb => exact absurd rfl hb
  · show k.val + 128 = 128 + k.val
    omega

/-- The product sum of the concatenation `[x | y]` with the weights, split at column 128: the first array against the
    weights' first 128 rows plus the second against their last 128. -/
theorem cat_dot (x y : FVec Ideal S50000x128 .f32) (w : FVec Ideal S256x128 .f32) (n : Fin 50000) (j : Fin 128) :
    ∑ k : Fin 256, concatenate S50000x256 1 [⟨S50000x128, x⟩, ⟨S50000x128, y⟩] concatenates_S50000x128_S50000x128_S50000x256_d1 (ix2 n k) * w (ix2 k j)
      = (∑ k : Fin 128, x (ix2 n k) * w (ix2 (⟨k.val, by omega⟩ : Fin 256) j))
        + ∑ k : Fin 128, y (ix2 n k) * w (ix2 (⟨128 + k.val, by omega⟩ : Fin 256) j) := by
  refine (sum_split_256 _).trans ?_
  refine congrArg₂ (· + ·) (Finset.sum_congr rfl fun k _ => ?_) (Finset.sum_congr rfl fun k _ => ?_)
  · beta_reduce
    rw [cat_left]
  · beta_reduce
    rw [cat_right]

/-- The sum over the 25 neighbours from the zero initial value, divided by the broadcast 25.0, is the specification's
    neighbour mean: the zero adds nothing and the divisor is the same word, never evaluated. -/
theorem mean_read (sum div : FVec Ideal S50000x128 .f32) (neg : FVec Ideal S50000x25x128 .f32) (n : Fin 50000) (k : Fin 128)
    (hs : sum (ix2 n k) = Ideal.ofBits .f32 0x00000000#32 + ∑ s : Fin 25, neg (ix3 n s k))
    (hd : div (ix2 n k) = Ideal.ofBits .f32 0x41C80000#32) :
    FloatOps.hostDivf (sum (ix2 n k)) (div (ix2 n k)) = Cert.Layer.nbrMean neg n k := by
  rw [hs, hd, Ideal.hostDivf_def, Ideal.ofBits_zero_f32, zero_add]
  rfl

/-- The first program's neighbour mean. -/
theorem v5_read (x1 : FVec Ideal S50000x25x128 .f32) (n : Fin 50000) (k : Fin 128) :
    val_main_v5 (F := Ideal) x1 (ix2 n k) = Cert.Layer.nbrMean x1 n k := by
  refine (val_main_v5_apply (F := Ideal) x1 (ix2 n k)).trans ?_
  refine mean_read (val_main_v3 (F := Ideal) x1) (val_main_v4 (F := Ideal)) x1 n k ?_ ?_
  · refine (val_main_v3_apply x1 (ix2 n k)).trans ?_
    refine congrArg₂ (· + ·) rfl (Finset.sum_congr rfl fun s _ => congrArg x1 ?_)
    exact funext fun a => Fin.ext (by match a with | ⟨0, _⟩ => rfl | ⟨1, _⟩ => rfl | ⟨2, _⟩ => rfl)
  · exact (val_main_v4_apply (F := Ideal) (ix2 n k)).trans rfl

/-- The second program's neighbour mean. -/
theorem v2_read (x3 : FVec Ideal S50000x25x128 .f32) (n : Fin 50000) (k : Fin 128) :
    val_main_v2 (F := Ideal) x3 (ix2 n k) = Cert.Layer.nbrMean x3 n k := by
  refine (val_main_v2_apply (F := Ideal) x3 (ix2 n k)).trans ?_
  refine mean_read (val_main_v0 (F := Ideal) x3) (val_main_v1 (F := Ideal)) x3 n k ?_ ?_
  · refine (val_main_v0_apply x3 (ix2 n k)).trans ?_
    refine congrArg₂ (· + ·) rfl (Finset.sum_congr rfl fun s _ => congrArg x3 ?_)
    exact funext fun a => Fin.ext (by match a with | ⟨0, _⟩ => rfl | ⟨1, _⟩ => rfl | ⟨2, _⟩ => rfl)
  · exact (val_main_v1_apply (F := Ideal) (ix2 n k)).trans rfl

/-- One entry of the concatenation's product with the weights, its second half a neighbour mean, is the
    specification's entry. -/
theorem cat_entry (x y : FVec Ideal S50000x128 .f32) (neg : FVec Ideal S50000x25x128 .f32) (w : FVec Ideal S256x128 .f32)
    (n : Fin 50000) (j : Fin 128) (hy : ∀ k : Fin 128, y (ix2 n k) = Cert.Layer.nbrMean neg n k) :
    ∑ k : Fin 256, concatenate S50000x256 1 [⟨S50000x128, x⟩, ⟨S50000x128, y⟩] concatenates_S50000x128_S50000x128_S50000x256_d1 (ix2 n k) * w (ix2 k j) = Cert.Layer.entry x neg w n j := by
  refine (cat_dot x y w n j).trans ?_
  unfold Cert.Layer.entry
  refine congrArg₂ (· + ·) rfl (Finset.sum_congr rfl fun k _ => ?_)
  rw [hy k]

/-- The first result at the index (n, j). -/
theorem v9_entry (x0 : FVec Ideal S50000x128 .f32) (x1 : FVec Ideal S50000x25x128 .f32) (x4 : FVec Ideal S256x128 .f32)
    (n : Fin 50000) (j : Fin 128) :
    val_main_v9 (F := Ideal) x0 x1 x4 (ix2 n j) = Cert.Layer.entry x0 x1 x4 n j := by
  refine (val_main_v9_apply x0 x1 x4 (ix2 n j)).trans ?_
  refine Eq.trans (Finset.sum_congr rfl fun k _ => ?_) (cat_entry x0 (val_main_v5 (F := Ideal) x1) x1 x4 n j (v5_read x1 n))
  have hl : lidx_main_v9 (ix2 n j) k = ix2 n k :=
    funext fun a => Fin.ext (by match a with | ⟨0, _⟩ => rfl | ⟨1, _⟩ => rfl)
  have hr : ridx_main_v9 (ix2 n j) k = ix2 k j :=
    funext fun a => Fin.ext (by match a with | ⟨0, _⟩ => rfl | ⟨1, _⟩ => rfl)
  rw [hl, hr]
  rfl

/-- The second result at the index (n, j). -/
theorem v8_entry (x2 : FVec Ideal S50000x128 .f32) (x3 : FVec Ideal S50000x25x128 .f32) (x4 : FVec Ideal S256x128 .f32)
    (n : Fin 50000) (j : Fin 128) :
    val_main_v8 (F := Ideal) x2 x3 x4 (ix2 n j) = Cert.Layer.entry x2 x3 x4 n j := by
  refine (val_main_v8_apply x2 x3 x4 (ix2 n j)).trans ?_
  refine Eq.trans (Finset.sum_congr rfl fun k _ => ?_) (cat_entry x2 (val_main_v2 (F := Ideal) x3) x3 x4 n j (v2_read x3 n))
  have hl : lidx_main_v8 (ix2 n j) k = ix2 n k :=
    funext fun a => Fin.ext (by match a with | ⟨0, _⟩ => rfl | ⟨1, _⟩ => rfl)
  have hr : ridx_main_v8 (ix2 n j) k = ix2 k j :=
    funext fun a => Fin.ext (by match a with | ⟨0, _⟩ => rfl | ⟨1, _⟩ => rfl)
  rw [hl, hr]
  rfl

/-- The reference's first result is the layer of its first pair of feature arrays. -/
theorem ref_src (x0 : FVec Ideal S50000x128 .f32) (x1 : FVec Ideal S50000x25x128 .f32) (x4 : FVec Ideal S256x128 .f32) :
    val_main_v9 (F := Ideal) x0 x1 x4 = Cert.Layer.layer x0 x1 x4 := by
  funext i
  exact (congrArg (val_main_v9 (F := Ideal) x0 x1 x4) (eq_ix2 i)).trans (v9_entry x0 x1 x4 (i 0) (i 1))

/-- The reference's second result is the layer of its second pair. -/
theorem ref_dst (x2 : FVec Ideal S50000x128 .f32) (x3 : FVec Ideal S50000x25x128 .f32) (x4 : FVec Ideal S256x128 .f32) :
    val_main_v8 (F := Ideal) x2 x3 x4 = Cert.Layer.layer x2 x3 x4 := by
  funext i
  exact (congrArg (val_main_v8 (F := Ideal) x2 x3 x4) (eq_ix2 i)).trans (v8_entry x2 x3 x4 (i 0) (i 1))

end Cert.ReferenceIdeal.RefValue

end
-- ==== Proof.lean ====
/-
  The certificate: a neighbour-aggregation layer computed block by block equals the plain one.

  Both programs take node features `src`, `dst` (50000 x 128), the features of each node's 25 sampled neighbours
  `src_neg`, `dst_neg` (50000 x 25 x 128) and weights `w` (256 x 128), and return, for each node set, the row
  [self | mean over the 25 neighbours] (length 256) times `w`.

  The reference does exactly that: a mean, a concatenation, one product with a contraction of length 256. The kernel
  walks the rows in 98 blocks of 512, and per block forms the mean and adds two products of contraction length 128 —
  the self half against the weights' rows 0‥127, the mean half against rows 128‥255. Over the extended reals (a float
  an exact extended real, every operation the textbook one, a change of format the identity) the two are one function,
  `Cert.Layer.layer` (Proof/Spec.lean): both means divide the same sum by the same printed 25.0, and a sum over 256
  indices is the sum over its first 128 plus the sum over its last 128 — addition of extended reals is commutative and
  associative, so no finiteness of the inputs is used anywhere.

  The one delicate point is the grid's end: 98 * 512 = 50176, so the last block reaches 176 rows past the arrays. Those
  rows of the staging buffers hold words nothing names, the body computes on them, and only the 336 rows inside the
  arrays are written back. Row r of the body's output reads row r of its inputs alone (Proof/IdealPayload.lean), so the
  rows written back are right whatever the others held (Proof/IdealRun.lean `rows0`, `rows1`); the blocks written
  back are blocks of one whole-array function and cover the array (`final0`, `final1`).

  The claims: the three frames — each program runs to its end, nothing faults, the arguments end unchanged —, the
  idealization (the ideal reading rewrote nothing: trivially so), and the equality of the results at the ideal
  instance. At the word level (Proof/WordRun.lean) only the frame is claimed, and what the body leaves in the result
  buffers is not named at all.
-/
import proofs.«108062_j79714593014087_2_alg».proof.Defs
import proofs.«108062_j79714593014087_2_alg».proof.Proof.Gen.Kernel
import proofs.«108062_j79714593014087_2_alg».proof.Proof.Gen.KernelIdeal
import proofs.«108062_j79714593014087_2_alg».proof.Proof.Gen.ReferenceIdeal
import proofs.«108062_j79714593014087_2_alg».proof.Proof.Gen.ReferenceIdeal.Read
import proofs.«108062_j79714593014087_2_alg».proof.Proof.Gen.Pre_finite_inputs
import proofs.«108062_j79714593014087_2_alg».proof.Proof.WordRun
import proofs.«108062_j79714593014087_2_alg».proof.Proof.IdealRun
import proofs.«108062_j79714593014087_2_alg».proof.Proof.RefLayer
import Idealize.ShloMosaic.Adequacy
import Idealize.ShloMosaic.Init

noncomputable section

namespace Cert.Proof

open Idealize.ShloMosaic Idealize.SL.Sem

/-- The kernel as printed runs to its end and leaves its arguments unchanged. -/
theorem frame_word : Cert.frame_Kernel := fun m ρ _ => Cert.Kernel.Run.frame (F := Bits) m ρ

/-- So does its ideal reading. -/
theorem frame_ideal : Cert.frame_KernelIdeal := fun m ρ _ => Cert.KernelIdeal.Run.frame m ρ

/-- The reference is a straight line of host operations: its run with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- The ideal reading rewrote no operation of the kernel. -/
theorem preserves : Cert.preserves_Kernel_KernelIdeal := trivial

/-- From memories agreeing on the arguments both ideal programs end with each result at the layer of the arguments:
    the kernel by its run read back (`Cert.KernelIdeal.Run.run`), the reference by its run and the reading of its two
    products as the layer (`ref_src`, `ref_dst`). -/
theorem algebraic : Cert.algebraic_KernelIdeal_ReferenceIdeal := by
  intro m ρ m' ρ' _ hagree
  refine ⟨fun c => Cert.KernelIdeal.Run.want0 m c, fun c => Cert.KernelIdeal.Run.want1 m c,
    Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · refine ((h c).1.trans ((Cert.ReferenceIdeal.Read.val_main_v9_eq _ _ _).trans
      (Cert.ReferenceIdeal.RefValue.ref_src _ _ _))).trans ?_
    unfold Cert.KernelIdeal.Run.want0
    rw [(hagree c).1, (hagree c).2.1, (hagree c).2.2.2.2]
  · refine ((h c).2.1.trans ((Cert.ReferenceIdeal.Read.val_main_v8_eq _ _ _).trans
      (Cert.ReferenceIdeal.RefValue.ref_dst _ _ _))).trans ?_
    unfold Cert.KernelIdeal.Run.want1
    rw [(hagree c).2.2.1, (hagree c).2.2.2.1, (hagree c).2.2.2.2]

theorem claim : Cert.Claim := ⟨Cert.Kernel.Gen.facts, Cert.KernelIdeal.Gen.facts, Cert.ReferenceIdeal.Gen.facts,
  Cert.Pre_finite_inputs.Gen.facts, frame_word, frame_ideal, frame_ref, preserves, algebraic⟩

end Cert.Proof

end
